-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 70
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S1x128, .f32⟩
  | .hbm, ⟨39, _⟩ => ⟨S128x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S128x64, .f32⟩
  | .hbm, ⟨67, _⟩ => ⟨S1x64, .f32⟩
  | .hbm, ⟨68, _⟩ => ⟨S128x64, .f32⟩
  | .hbm, ⟨69, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S128x64, .f32⟩
  | .hbm, ⟨79, _⟩ => ⟨S50000x64, .f32⟩
  | .hbm, ⟨80, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel program's run, with its result array named.

  The program is four segments: a stretch of host operations, the first kernel, a second stretch, the second
  kernel.  The buffer contents at each boundary are a fold from the launch memory, and at the end every buffer
  that outlives the program holds the last boundary's contents.  Read at the result buffer this names the
  result; read at the eight argument buffers it gives back the launch contents, since nothing writes them.
-/
import proofs.«181599_j51170240364826_1_alg».proof.Proof.Gen.KernelIdeal.Frame

set_option maxRecDepth 16384

noncomputable section

namespace Cert.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer at the last
    boundary's contents and the eight arguments as launched. -/
theorem run_named : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.SageRun

end
-- ==== Proof.Spec.lean ====
/-
  The arithmetic of one mean-aggregating graph-convolution layer, index by index, on the extended reals.

  A layer takes the aggregated neighbour features `A` and the nodes' own features `X` (both n × 128) to
  `A · Wlᵀ + b + X · Wrᵀ` (n × o).  It is written here in two arrangements: with the weights as given (o × 128),
  the bias a vector and the bias added between the two products (`lin`); and with the weights already transposed
  (128 × o), the bias a one-row matrix and the bias added last (`linT`).  The two agree because addition of
  extended reals is commutative and associative (`linT_eq_lin`): no finiteness is needed.  The network is two
  layers, the first followed by the maximum with zero, each fed by the same aggregation `agg` of its input
  features (`sage`); the aggregation is a parameter here and is never opened.
-/
import Idealize.ShloMosaic.Lib.ValueIdx
import Idealize.ShloMosaic.PureOps.Ideal

noncomputable section

open scoped BigOperators

namespace Cert.Sage

open Idealize.ShloMosaic Idealize.ShloMosaic.ValueIdx

variable {n o : Nat}

/-- A layer at (r, j) with transposed weights and a one-row bias: both products first, the bias last. -/
def linT (A X : (⟨2, ![n, 128]⟩ : Shape).Idx → EReal) (WlT WrT : (⟨2, ![128, o]⟩ : Shape).Idx → EReal)
    (B : (⟨2, ![1, o]⟩ : Shape).Idx → EReal) (r : Fin n) (j : Fin o) : EReal :=
  (∑ k : Fin 128, A (ix2 r k) * WlT (ix2 k j)) + (∑ k : Fin 128, X (ix2 r k) * WrT (ix2 k j)) + B (ix2 (0 : Fin 1) j)

/-- A layer at (r, j) with the weights as given and a bias vector: the bias between the two products. -/
def lin (A X : (⟨2, ![n, 128]⟩ : Shape).Idx → EReal) (Wl Wr : (⟨2, ![o, 128]⟩ : Shape).Idx → EReal)
    (b : (⟨1, ![o]⟩ : Shape).Idx → EReal) (r : Fin n) (j : Fin o) : EReal :=
  (∑ k : Fin 128, A (ix2 r k) * Wl (ix2 j k)) + b (ix1 j) + ∑ k : Fin 128, X (ix2 r k) * Wr (ix2 j k)

/-- The two arrangements agree when the transposed weights and the one-row bias are what their names say:
    `(a + c) + b = (a + b) + c` on the extended reals. -/
theorem linT_eq_lin (A X : (⟨2, ![n, 128]⟩ : Shape).Idx → EReal) (WlT WrT : (⟨2, ![128, o]⟩ : Shape).Idx → EReal)
    (B : (⟨2, ![1, o]⟩ : Shape).Idx → EReal) (Wl Wr : (⟨2, ![o, 128]⟩ : Shape).Idx → EReal)
    (b : (⟨1, ![o]⟩ : Shape).Idx → EReal)
    (hl : ∀ (k : Fin 128) (j : Fin o), WlT (ix2 k j) = Wl (ix2 j k))
    (hr : ∀ (k : Fin 128) (j : Fin o), WrT (ix2 k j) = Wr (ix2 j k))
    (hb : ∀ j : Fin o, B (ix2 (0 : Fin 1) j) = b (ix1 j)) (r : Fin n) (j : Fin o) :
    linT A X WlT WrT B r j = lin A X Wl Wr b r j := by
  unfold linT lin
  rw [add_right_comm]
  simp only [hl, hr, hb]

/-- The layer at (r, j) reads only row r of the two feature arrays, column j of the two weight matrices and entry j
    of the bias row: a block holding that row, with the same weights and bias, gives the same value. -/
theorem linT_congr {n' : Nat} (A X : (⟨2, ![n, 128]⟩ : Shape).Idx → EReal) (A' X' : (⟨2, ![n', 128]⟩ : Shape).Idx → EReal)
    (WlT WrT WlT' WrT' : (⟨2, ![128, o]⟩ : Shape).Idx → EReal) (B B' : (⟨2, ![1, o]⟩ : Shape).Idx → EReal)
    (r : Fin n) (p : Fin n') (j : Fin o)
    (hA : ∀ k : Fin 128, A' (ix2 p k) = A (ix2 r k)) (hX : ∀ k : Fin 128, X' (ix2 p k) = X (ix2 r k))
    (hl : ∀ k : Fin 128, WlT' (ix2 k j) = WlT (ix2 k j)) (hr : ∀ k : Fin 128, WrT' (ix2 k j) = WrT (ix2 k j))
    (hb : B' (ix2 (0 : Fin 1) j) = B (ix2 (0 : Fin 1) j)) :
    linT A' X' WlT' WrT' B' p j = linT A X WlT WrT B r j := by
  unfold linT
  simp only [hA, hX, hl, hr, hb]

/-- The first layer's output array: the layer, then the maximum with the zero word. -/
def hidden (A X : (⟨2, ![50000, 128]⟩ : Shape).Idx → EReal) (Wl Wr : (⟨2, ![128, 128]⟩ : Shape).Idx → EReal)
    (b : (⟨1, ![128]⟩ : Shape).Idx → EReal) : (⟨2, ![50000, 128]⟩ : Shape).Idx → EReal :=
  fun i => max (lin A X Wl Wr b (i 0) (i 1)) (Ideal.ofBits .f32 0x00000000#32)

/-- The second layer's output array: the layer alone. -/
def outer (A X : (⟨2, ![50000, 128]⟩ : Shape).Idx → EReal) (Wl Wr : (⟨2, ![64, 128]⟩ : Shape).Idx → EReal)
    (b : (⟨1, ![64]⟩ : Shape).Idx → EReal) : (⟨2, ![50000, 64]⟩ : Shape).Idx → EReal :=
  fun i => lin A X Wl Wr b (i 0) (i 1)

/-- The same two arrays in the transposed arrangement. -/
def hiddenT (A X : (⟨2, ![50000, 128]⟩ : Shape).Idx → EReal) (WlT WrT : (⟨2, ![128, 128]⟩ : Shape).Idx → EReal)
    (B : (⟨2, ![1, 128]⟩ : Shape).Idx → EReal) : (⟨2, ![50000, 128]⟩ : Shape).Idx → EReal :=
  fun i => max (linT A X WlT WrT B (i 0) (i 1)) (Ideal.ofBits .f32 0x00000000#32)

def outerT (A X : (⟨2, ![50000, 128]⟩ : Shape).Idx → EReal) (WlT WrT : (⟨2, ![128, 64]⟩ : Shape).Idx → EReal)
    (B : (⟨2, ![1, 64]⟩ : Shape).Idx → EReal) : (⟨2, ![50000, 64]⟩ : Shape).Idx → EReal :=
  fun i => linT A X WlT WrT B (i 0) (i 1)

theorem hiddenT_eq_hidden (A X : (⟨2, ![50000, 128]⟩ : Shape).Idx → EReal) (WlT WrT : (⟨2, ![128, 128]⟩ : Shape).Idx → EReal)
    (B : (⟨2, ![1, 128]⟩ : Shape).Idx → EReal) (Wl Wr : (⟨2, ![128, 128]⟩ : Shape).Idx → EReal)
    (b : (⟨1, ![128]⟩ : Shape).Idx → EReal)
    (hl : ∀ (k : Fin 128) (j : Fin 128), WlT (ix2 k j) = Wl (ix2 j k))
    (hr : ∀ (k : Fin 128) (j : Fin 128), WrT (ix2 k j) = Wr (ix2 j k))
    (hb : ∀ j : Fin 128, B (ix2 (0 : Fin 1) j) = b (ix1 j)) :
    hiddenT A X WlT WrT B = hidden A X Wl Wr b :=
  funext fun i => congrArg (fun v : EReal => max v (Ideal.ofBits .f32 0x00000000#32)) (linT_eq_lin A X WlT WrT B Wl Wr b hl hr hb (i 0) (i 1))

theorem outerT_eq_outer (A X : (⟨2, ![50000, 128]⟩ : Shape).Idx → EReal) (WlT WrT : (⟨2, ![128, 64]⟩ : Shape).Idx → EReal)
    (B : (⟨2, ![1, 64]⟩ : Shape).Idx → EReal) (Wl Wr : (⟨2, ![64, 128]⟩ : Shape).Idx → EReal)
    (b : (⟨1, ![64]⟩ : Shape).Idx → EReal)
    (hl : ∀ (k : Fin 128) (j : Fin 64), WlT (ix2 k j) = Wl (ix2 j k))
    (hr : ∀ (k : Fin 128) (j : Fin 64), WrT (ix2 k j) = Wr (ix2 j k))
    (hb : ∀ j : Fin 64, B (ix2 (0 : Fin 1) j) = b (ix1 j)) :
    outerT A X WlT WrT B = outer A X Wl Wr b :=
  funext fun i => linT_eq_lin A X WlT WrT B Wl Wr b hl hr hb (i 0) (i 1)

/-- The whole network over an aggregation `agg` of a feature array: the second layer of the aggregated and own
    hidden features, the hidden features being the first layer (with its maximum) of the aggregated and own inputs. -/
def sage (agg : ((⟨2, ![50000, 128]⟩ : Shape).Idx → EReal) → ((⟨2, ![50000, 128]⟩ : Shape).Idx → EReal))
    (x : (⟨2, ![50000, 128]⟩ : Shape).Idx → EReal) (W1l : (⟨2, ![128, 128]⟩ : Shape).Idx → EReal)
    (b1 : (⟨1, ![128]⟩ : Shape).Idx → EReal) (W1r : (⟨2, ![128, 128]⟩ : Shape).Idx → EReal)
    (W2l : (⟨2, ![64, 128]⟩ : Shape).Idx → EReal) (b2 : (⟨1, ![64]⟩ : Shape).Idx → EReal)
    (W2r : (⟨2, ![64, 128]⟩ : Shape).Idx → EReal) : (⟨2, ![50000, 64]⟩ : Shape).Idx → EReal :=
  outer (agg (hidden (agg x) x W1l W1r b1)) (hidden (agg x) x W1l W1r b1) W2l W2r b2

end Cert.Sage

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.KBody.lean ====
/-
  What each kernel body computes, read at one entry of its output block.

  A body loads a block of aggregated features, the same block of own features, the two weight matrices (already
  transposed, 128 × o) and the bias row, multiplies each feature block by its weights on the matrix unit into a
  zero accumulator, adds the two products, adds the bias row to every row, and (in the first layer only) takes
  the maximum with zero.  At the ideal values a change of float format is the identity and a product into the
  zero accumulator is the plain sum over the contracted axis, so the stored value at (p, j) is the layer's
  arithmetic `linT` of the loaded blocks at (p, j).
-/
import proofs.«181599_j51170240364826_1_alg».proof.Proof.Gen.KernelIdeal.Skeleton
import proofs.«181599_j51170240364826_1_alg».proof.Proof.Spec
import proofs.«181599_j51170240364826_1_alg».proof.Proof.LibPlainDot
import Idealize.ShloMosaic.Lib.Pipeline.Value
import Idealize.ShloMosaic.Lib.ValueLayout

noncomputable section

namespace Cert.SageBody

open Cert.KernelIdeal Cert.KernelIdeal.Gen Idealize.ShloMosaic Idealize.ShloMosaic.ValueIdx Cert.Sage Cert.Lib.PlainDot

/-- The first body's dimension numbers are the plain "rows × contraction times contraction × columns". -/
theorem dot0_plain : dot_S5000x128_S128x128_S5000x128_1_0_0_1_n_n = DotDims.plain 5000 128 128 := rfl
/-- So are the second body's. -/
theorem dot1_plain : dot_S5000x128_S128x64_S5000x64_1_0_0_1_n_n = DotDims.plain 5000 128 64 := rfl

/-- A block times a weight matrix into the zero accumulator, at (p, j): the sum over k of block (p, k) · weight (k, j). -/
theorem mm0 (a : FVec Ideal S5000x128 .bf16) (w : FVec Ideal S128x128 .bf16) (p : Fin 5000) (j : Fin 128) :
    matmul dot_S5000x128_S128x128_S5000x128_1_0_0_1_n_n none a w (constant (F := Ideal) S5000x128 .f32 0x00000000#32) (ix2 p j)
      = ∑ k : Fin 128, a (ix2 p k) * w (ix2 k j) := by
  rw [dot0_plain]
  exact matmul_plain_zero_apply none a w p j

theorem mm1 (a : FVec Ideal S5000x128 .bf16) (w : FVec Ideal S128x64 .bf16) (p : Fin 5000) (j : Fin 64) :
    matmul dot_S5000x128_S128x64_S5000x64_1_0_0_1_n_n none a w (constant (F := Ideal) S5000x64 .f32 0x00000000#32) (ix2 p j)
      = ∑ k : Fin 128, a (ix2 p k) * w (ix2 k j) := by
  rw [dot1_plain]
  exact matmul_plain_zero_apply none a w p j

/-- The first body's stored value at (p, j): the layer's arithmetic of the loaded blocks, then the maximum with zero. -/
theorem pay0_apply (v0 v3 : Vec Ideal S5000x128 .f32) (v5 v8 : Vec Ideal S128x128 .f32) (v14 : Vec Ideal S1x128 .f32)
    (p : Fin 5000) (j : Fin 128) :
    k0_pay1 (F := Ideal) v0 v3 v5 v8 v14 (ix2 p j) = max (linT v0 v3 v5 v8 v14 p j) (Ideal.ofBits .f32 0x00000000#32) := by
  unfold k0_pay1 linT
  simp only [shapeCast_self]
  rw [maximumf_apply, addf_apply, addf_apply, broadcast_apply, mm0, mm0, broadcastTo_1b_ab_apply]
  rfl

/-- The second body's stored value at (p, j): the layer's arithmetic of the loaded blocks. -/
theorem pay1_apply (v0 v3 : Vec Ideal S5000x128 .f32) (v6 v9 : Vec Ideal S128x64 .f32) (v15 : Vec Ideal S1x64 .f32)
    (p : Fin 5000) (j : Fin 64) :
    k1_pay1 (F := Ideal) v0 v3 v6 v9 v15 (ix2 p j) = linT v0 v3 v6 v9 v15 p j := by
  unfold k1_pay1 linT
  simp only [shapeCast_self]
  rw [addf_apply, addf_apply, mm1, mm1, broadcastTo_1b_ab_apply]
  rfl

end Cert.SageBody

end
-- ==== Proof.KRegion0.lean ====
/-
  The first kernel's output array, as one function of the arrays it reads.

  The kernel walks ten blocks of 5000 rows.  At block t it reads rows 5000·t … 5000·t + 4999 of the aggregated
  and of the own features, the whole of both weight matrices and the bias row, and writes the same rows of the
  output.  So the value written at local position (p, j) of block t is the layer's arithmetic at row
  5000·t + p and column j of the whole arrays; the ten blocks are disjoint and fill the array (row r lies in
  block r / 5000), hence the array ends as `hiddenT` of the five arrays as the kernel found them.
-/
import proofs.«181599_j51170240364826_1_alg».proof.Proof.Gen.KernelIdeal.Frame
import proofs.«181599_j51170240364826_1_alg».proof.Proof.KBody

set_option maxRecDepth 16384

noncomputable section

namespace Cert.SageRegion0

open Cert.KernelIdeal Cert.KernelIdeal.Gen Idealize.ShloMosaic Idealize.ShloMosaic.TcCoe Idealize.ShloMosaic.ValueIdx
open Idealize.SL.Sem Cert.Sage Cert.SageBody
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed block index maps over the ten grid points: the two feature windows and the output move together,
    block t at row block t; the weights and the bias stay at block (0, 0). -/
theorem index_facts : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What point t writes back is block t of the layer's array. -/
theorem flushed_eq (c : Dev nD) (t : Fin cfg0.N) :
    (dat0 (F := Ideal) V c).flushed 5 t = ((cfg0.win 5).blk t).view.read (Elt Ideal)
      (hiddenT (V c main_v22) (V c main_arg0) (V c main_v23) (V c main_v25) (V c main_v24)) := by
  show (cfg0.win 5).cut (grid0.coords t) ((dat0 (F := Ideal) V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  have ht : t.val < 10 := N_0 ▸ t.isLt
  obtain ⟨e50, e51, e00, e01, e10, e11, e20, e21, e30, e31, e40, e41⟩ := index_facts t
  funext y
  obtain ⟨p, j, rfl⟩ : ∃ (p : Fin 5000) (j : Fin 128), y = ix2 p j := ⟨y 0, y 1, eq_ix2 y⟩
  have h5 : ((cfg0.win 5).blk t).view.emb (ix2 p j) = ix2 (⟨t.val * 5000 + p.val, by omega⟩ : Fin 50000) j := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * j.val = j.val; omega
  have h0 : ∀ k : Fin 128, ((cfg0.win 0).blk t).view.emb (ix2 p k) = ix2 (⟨t.val * 5000 + p.val, by omega⟩ : Fin 50000) k := fun k => by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, ((cfg0.win 1).blk t).view.emb (ix2 p k) = ix2 (⟨t.val * 5000 + p.val, by omega⟩ : Fin 50000) k := fun k => by
    funext a; apply Fin.ext
    match a with
    | ⟨0, _⟩ => show win0_1.index t (0 : Fin 2) * 5000 + 1 * p.val = t.val * 5000 + p.val; omega
    | ⟨1, _⟩ => show win0_1.index t (1 : Fin 2) * 128 + 1 * k.val = k.val; omega
  have h2 : ∀ k : Fin 128, ((cfg0.win 2).blk t).view.emb (ix2 k j) = ix2 k j := fun k => by
    funext a; apply Fin.ext
    match a with
    | ⟨0, _⟩ => show win0_2.index t (0 : Fin 2) * 128 + 1 * k.val = k.val; omega
    | ⟨1, _⟩ => show win0_2.index t (1 : Fin 2) * 128 + 1 * j.val = j.val; omega
  have h4 : ∀ k : Fin 128, ((cfg0.win 4).blk t).view.emb (ix2 k j) = ix2 k j := fun k => by
    funext a; apply Fin.ext
    match a with
    | ⟨0, _⟩ => show win0_4.index t (0 : Fin 2) * 128 + 1 * k.val = k.val; omega
    | ⟨1, _⟩ => show win0_4.index t (1 : Fin 2) * 128 + 1 * j.val = j.val; omega
  have h3 : ((cfg0.win 3).blk t).view.emb (ix2 (0 : Fin 1) j) = ix2 (0 : Fin 1) j := by
    funext a; apply Fin.ext
    match a with
    | ⟨0, _⟩ => show win0_3.index t (0 : Fin 2) * 1 + 1 * 0 = 0; omega
    | ⟨1, _⟩ => show win0_3.index t (1 : Fin 2) * 128 + 1 * j.val = j.val; omega
  show k0_pay1 (iblk0 V c 0 t) (iblk0 V c 1 t) (iblk0 V c 2 t) (iblk0 V c 4 t) (iblk0 V c 3 t) (ix2 p j)
    = hiddenT (V c main_v22) (V c main_arg0) (V c main_v23) (V c main_v25) (V c main_v24) (((cfg0.win 5).blk t).view.emb (ix2 p j))
  rw [h5]
  refine (pay0_apply (iblk0 V c 0 t) (iblk0 V c 1 t) (iblk0 V c 2 t) (iblk0 V c 4 t) (iblk0 V c 3 t) p j).trans ?_
  refine congrArg (fun v : EReal => max v (Ideal.ofBits .f32 0x00000000#32)) ?_
  exact linT_congr (V c main_v22) (V c main_arg0) (iblk0 V c 0 t) (iblk0 V c 1 t) (V c main_v23) (V c main_v25) (iblk0 V c 2 t) (iblk0 V c 4 t)
    (V c main_v24) (iblk0 V c 3 t) (⟨t.val * 5000 + p.val, by omega⟩ : Fin 50000) p j
    (fun k => congrArg (V c main_v22) (h0 k)) (fun k => congrArg (V c main_arg0) (h1 k))
    (fun k => congrArg (V c main_v23) (h2 k)) (fun k => congrArg (V c main_v25) (h4 k)) (congrArg (V c main_v24) h3)

/-- An index of the output array lies in point t's block iff each coordinate lies in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every index of the output array lies in some point's block: row r in block r / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < cfg0.N := by show _ < grid0.N; rw [N_0]; omega
  obtain ⟨e50, e51, -⟩ := index_facts ⟨(i 0).val / 5000, hN⟩
  refine ⟨⟨(i 0).val / 5000, hN⟩, flush0_5 _, ?_⟩
  rw [mem_blk]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    have : win0_5.index ⟨(i 0).val / 5000, hN⟩ (0 : Fin 2) = (i 0).val / 5000 := e50
    omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    omega

/-- The first kernel's output array after its run: the first layer (in the transposed arrangement, with its
    maximum) of the five arrays as the kernel found them. -/
theorem final (c : Dev nD) : (dat0 (F := Ideal) V c).arrAt 5 cfg0.N
    = hiddenT (V c main_v22) (V c main_arg0) (V c main_v23) (V c main_v25) (V c main_v24) :=
  (dat0 (F := Ideal) V c).arrAt_eq_of_cover 5 _ (fun t _ => flushed_eq V c t) cover

end Cert.SageRegion0

end
-- ==== Proof.KRegion1.lean ====
/-
  The second kernel's output array, as one function of the arrays it reads.

  As for the first kernel: ten blocks of 5000 rows; block t reads rows 5000·t … 5000·t + 4999 of the aggregated
  hidden features and of the hidden features, both weight matrices (128 × 64) and the bias row, and writes the
  same rows of the 64-column output.  The value at local position (p, j) of block t is the layer's arithmetic at
  row 5000·t + p and column j of the whole arrays, the blocks fill the array, so the array ends as `outerT` of
  the five arrays as the kernel found them.  There is no maximum in this layer.
-/
import proofs.«181599_j51170240364826_1_alg».proof.Proof.Gen.KernelIdeal.Frame
import proofs.«181599_j51170240364826_1_alg».proof.Proof.KBody

set_option maxRecDepth 16384

noncomputable section

namespace Cert.SageRegion1

open Cert.KernelIdeal Cert.KernelIdeal.Gen Idealize.ShloMosaic Idealize.ShloMosaic.TcCoe Idealize.ShloMosaic.ValueIdx
open Idealize.SL.Sem Cert.Sage Cert.SageBody
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed block index maps over the ten grid points: the two feature windows and the output move together,
    block t at row block t; the weights and the bias stay at block (0, 0). -/
theorem index_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point t writes back is block t of the layer's array. -/
theorem flushed_eq (c : Dev nD) (t : Fin cfg1.N) :
    (dat1 (F := Ideal) V c).flushed 5 t = ((cfg1.win 5).blk t).view.read (Elt Ideal)
      (outerT (V c main_v45) (V c main_v26) (V c main_v46) (V c main_v48) (V c main_v47)) := by
  show (cfg1.win 5).cut (grid1.coords t) ((dat1 (F := Ideal) V c).after 5 t) = _
  rw [after1_5]
  unfold out1_5
  rw [View.canon_unit_zero zero_offsets]
  simp only [View.ld_unit_zero (S := S5000x128) zero_offsets, View.ld_unit_zero (S := S128x64) zero_offsets,
    View.ld_unit_zero (S := S1x64) zero_offsets]
  have ht : t.val < 10 := N_1 ▸ t.isLt
  obtain ⟨e50, e51, e00, e01, e10, e11, e20, e21, e30, e31, e40, e41⟩ := index_facts t
  funext y
  obtain ⟨p, j, rfl⟩ : ∃ (p : Fin 5000) (j : Fin 64), y = ix2 p j := ⟨y 0, y 1, eq_ix2 y⟩
  have h5 : ((cfg1.win 5).blk t).view.emb (ix2 p j) = ix2 (⟨t.val * 5000 + p.val, by omega⟩ : Fin 50000) j := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * j.val = j.val; omega
  have h0 : ∀ k : Fin 128, ((cfg1.win 0).blk t).view.emb (ix2 p k) = ix2 (⟨t.val * 5000 + p.val, by omega⟩ : Fin 50000) k := fun k => by
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ∀ k : Fin 128, ((cfg1.win 1).blk t).view.emb (ix2 p k) = ix2 (⟨t.val * 5000 + p.val, by omega⟩ : Fin 50000) k := fun k => by
    funext a; apply Fin.ext
    match a with
    | ⟨0, _⟩ => show win1_1.index t (0 : Fin 2) * 5000 + 1 * p.val = t.val * 5000 + p.val; omega
    | ⟨1, _⟩ => show win1_1.index t (1 : Fin 2) * 128 + 1 * k.val = k.val; omega
  have h2 : ∀ k : Fin 128, ((cfg1.win 2).blk t).view.emb (ix2 k j) = ix2 k j := fun k => by
    funext a; apply Fin.ext
    match a with
    | ⟨0, _⟩ => show win1_2.index t (0 : Fin 2) * 128 + 1 * k.val = k.val; omega
    | ⟨1, _⟩ => show win1_2.index t (1 : Fin 2) * 64 + 1 * j.val = j.val; omega
  have h4 : ∀ k : Fin 128, ((cfg1.win 4).blk t).view.emb (ix2 k j) = ix2 k j := fun k => by
    funext a; apply Fin.ext
    match a with
    | ⟨0, _⟩ => show win1_4.index t (0 : Fin 2) * 128 + 1 * k.val = k.val; omega
    | ⟨1, _⟩ => show win1_4.index t (1 : Fin 2) * 64 + 1 * j.val = j.val; omega
  have h3 : ((cfg1.win 3).blk t).view.emb (ix2 (0 : Fin 1) j) = ix2 (0 : Fin 1) j := by
    funext a; apply Fin.ext
    match a with
    | ⟨0, _⟩ => show win1_3.index t (0 : Fin 2) * 1 + 1 * 0 = 0; omega
    | ⟨1, _⟩ => show win1_3.index t (1 : Fin 2) * 64 + 1 * j.val = j.val; omega
  show k1_pay1 (iblk1 V c 0 t) (iblk1 V c 1 t) (iblk1 V c 2 t) (iblk1 V c 4 t) (iblk1 V c 3 t) (ix2 p j)
    = outerT (V c main_v45) (V c main_v26) (V c main_v46) (V c main_v48) (V c main_v47) (((cfg1.win 5).blk t).view.emb (ix2 p j))
  rw [h5]
  refine (pay1_apply (iblk1 V c 0 t) (iblk1 V c 1 t) (iblk1 V c 2 t) (iblk1 V c 4 t) (iblk1 V c 3 t) p j).trans ?_
  exact linT_congr (V c main_v45) (V c main_v26) (iblk1 V c 0 t) (iblk1 V c 1 t) (V c main_v46) (V c main_v48) (iblk1 V c 2 t) (iblk1 V c 4 t)
    (V c main_v47) (iblk1 V c 3 t) (⟨t.val * 5000 + p.val, by omega⟩ : Fin 50000) p j
    (fun k => congrArg (V c main_v45) (h0 k)) (fun k => congrArg (V c main_v26) (h1 k))
    (fun k => congrArg (V c main_v46) (h2 k)) (fun k => congrArg (V c main_v48) (h4 k)) (congrArg (V c main_v47) h3)

/-- An index of the output array lies in point t's block iff each coordinate lies in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v49).slice (win1_5.rect t)).set ↔ _
  rw [View.set_slice_whole, Rect.mem_set_unit]
  exact Iff.rfl

/-- Every index of the output array lies in some point's block: row r in block r / 5000. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : (i 0).val / 5000 < cfg1.N := by show _ < grid1.N; rw [N_1]; omega
  obtain ⟨e50, e51, -⟩ := index_facts ⟨(i 0).val / 5000, hN⟩
  refine ⟨⟨(i 0).val / 5000, hN⟩, flush1_5 _, ?_⟩
  rw [mem_blk]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    have : win1_5.index ⟨(i 0).val / 5000, hN⟩ (0 : Fin 2) = (i 0).val / 5000 := e50
    omega
  | ⟨1, _⟩ =>
    show win1_5.index ⟨(i 0).val / 5000, hN⟩ (1 : Fin 2) * 64 ≤ (i 1).val ∧ (i 1).val < win1_5.index ⟨(i 0).val / 5000, hN⟩ (1 : Fin 2) * 64 + 64
    omega

/-- The second kernel's output array after its run: the second layer (in the transposed arrangement) of the five
    arrays as the kernel found them. -/
theorem final (c : Dev nD) : (dat1 (F := Ideal) V c).arrAt 5 cfg1.N
    = outerT (V c main_v45) (V c main_v26) (V c main_v46) (V c main_v48) (V c main_v47) :=
  (dat1 (F := Ideal) V c).arrAt_eq_of_cover 5 _ (fun t _ => flushed_eq V c t) cover

end Cert.SageRegion1

end
-- ==== Proof.Agg.lean ====
/-
  The mean aggregation of a node-feature array along the edges, named once.

  Both programs aggregate features the same way, operation for operation: for each edge read its source node
  (a negative index counted from the end), gather that node's feature row, add the rows into their destination
  nodes starting from zero, and divide each node's sum by the number of edges arriving at it, or by one when
  none does.  The value certificate never looks inside this function: it is spelt here over the reference's
  own stages, and the two places where the reference applies it are read as this one function of the edge
  list and the feature array (`v22_eq` for the input features, `v50_eq` for the hidden features).
-/
import proofs.«181599_j51170240364826_1_alg».proof.Proof.Gen.ReferenceIdeal.Read

noncomputable section

namespace Cert.SageAgg

open Cert.ReferenceIdeal Cert.ReferenceIdeal.Gen Cert.ReferenceIdeal.Read Idealize.ShloMosaic Idealize.ShloMosaic.TcCoe

/-- The aggregated features: rows gathered at the edges' sources, summed into the edges' destinations, each
    node's sum divided by the larger of its edge count and one. -/
def agg (ei : (⟨S2x800000, .i32⟩ : BufTy).Contents (Elt Ideal)) (feat : FVec Ideal S50000x128 .f32) : FVec Ideal S50000x128 .f32 :=
  Host.divf (F := Ideal)
    (Host.scatterAdd (F := Ideal) scatter_S50000x128_S800000x1_S800000x128_1_0_0_1 (val_main_v11 (F := Ideal)) (val_main_v12 (F := Ideal) ei)
      (Host.gather gather_S50000x128_S800000x1_S800000x128_1_0_n_n_0_1_1128 feat (val_main_v9 (F := Ideal) ei)))
    (val_main_v21 (F := Ideal) ei)

/-- The reference's first aggregation is `agg` of the input features. -/
theorem v22_eq (x0 : (⟨S50000x128, .f32⟩ : BufTy).Contents (Elt Ideal)) (x1 : (⟨S2x800000, .i32⟩ : BufTy).Contents (Elt Ideal)) :
    val_main_v22 (F := Ideal) x0 x1 = agg x1 x0 := rfl

/-- The reference's second aggregation is `agg` of the hidden features: its operations are the first one's again,
    under other buffer names. -/
theorem v50_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v50 (F := Ideal) x0 x1 x2 x3 x4 = agg x1 (val_main_v31 (F := Ideal) x0 x1 x2 x3 x4) := rfl

end Cert.SageAgg

end
-- ==== Proof.KHost.lean ====
/-
  What the host operations of the two-layer program leave in the arrays its two layers read.

  Before each layer the program computes, on the host, the mean aggregation of a feature array along the edges and
  lays the layer's weights out for the product: each weight matrix transposed, the bias vector as a one-row matrix.
  This module reads those arrays back as functions of what was there before the stretch of host operations: the
  aggregate is the one aggregation function of the edge list and the feature array, a transposed weight at (k, j)
  is the weight at (j, k), and the one-row bias at (0, j) is the bias at j.  Nothing here looks inside the
  aggregation.
-/
import proofs.«181599_j51170240364826_1_alg».proof.Proof.Gen.KernelIdeal.Frame
import proofs.«181599_j51170240364826_1_alg».proof.Proof.Spec
import proofs.«181599_j51170240364826_1_alg».proof.Proof.Agg
import Idealize.ShloMosaic.Lib.StableHlo.Run
import Idealize.ShloMosaic.Lib.Pipeline.Value
import Idealize.ShloMosaic.Lib.ValueLayout

set_option maxRecDepth 16384

noncomputable section

namespace Cert.SageKHost

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The layer's own features are the first argument, untouched by the host operations. -/
theorem V1_x : (V1 m ρ c main_arg0 : S50000x128.Idx → EReal) = m ((c : Thread nD τ).loc main_arg0) := by
  dsimp only [Gen.V1, Gen.W1, Gen.hostOps0]
  after_results_simp <;> rfl

/-- The first layer's neighbour weights, transposed on the host: entry (k, j) is the given weight at (j, k). -/
theorem V1_wl (k : Fin 128) (j : Fin 128) :
    (V1 m ρ c main_v23 : S128x128.Idx → EReal) (ix2 k j) = m ((c : Thread nD τ).loc main_arg2) (ix2 j k) := by
  have e : (V1 m ρ c main_v23 : S128x128.Idx → EReal)
      = transpose S128x128 [1, 0] (m ((c : Thread nD τ).loc main_arg2) : S128x128.Idx → EReal) Facts₀.transposes_S128x128_S128x128_1_0 := by
    dsimp only [Gen.V1, Gen.W1, Gen.hostOps0]
    after_results_simp <;> rfl
  rw [e]
  exact transpose_ix2_apply _ _ k j

/-- The first layer's bias, laid out as a one-row matrix: entry (0, j) is the bias at j. -/
theorem V1_b (j : Fin 128) :
    (V1 m ρ c main_v24 : S1x128.Idx → EReal) (ix2 (0 : Fin 1) j) = m ((c : Thread nD τ).loc main_arg3) (ix1 j) := by
  have e : (V1 m ρ c main_v24 : S1x128.Idx → EReal)
      = shapeCast S1x128 (m ((c : Thread nD τ).loc main_arg3) : S128.Idx → EReal) Facts₀.shapeCasts_S128_S1x128 := by
    dsimp only [Gen.V1, Gen.W1, Gen.hostOps0]
    after_results_simp <;> rfl
  rw [e]
  exact shapeCast_a_1a_apply _ _ 0 j

/-- The first layer's own weights, transposed on the host: entry (k, j) is the given weight at (j, k). -/
theorem V1_wr (k : Fin 128) (j : Fin 128) :
    (V1 m ρ c main_v25 : S128x128.Idx → EReal) (ix2 k j) = m ((c : Thread nD τ).loc main_arg4) (ix2 j k) := by
  have e : (V1 m ρ c main_v25 : S128x128.Idx → EReal)
      = transpose S128x128 [1, 0] (m ((c : Thread nD τ).loc main_arg4) : S128x128.Idx → EReal) Facts₀.transposes_S128x128_S128x128_1_0 := by
    dsimp only [Gen.V1, Gen.W1, Gen.hostOps0]
    after_results_simp <;> rfl
  rw [e]
  exact transpose_ix2_apply _ _ k j

/-- The first layer's aggregated features: the host operations before the first layer are the aggregation of the
    input features along the edge list, operation for operation. -/
theorem V1_agg : (V1 m ρ c main_v22 : S50000x128.Idx → EReal)
    = Cert.SageAgg.agg (m ((c : Thread nD τ).loc main_arg1)) (m ((c : Thread nD τ).loc main_arg0)) := by
  dsimp only [Gen.V1, Gen.W1, Gen.hostOps0]
  after_results_simp
  rfl

/-! ## The second layer's inputs

The second stretch of host operations runs over what the first layer left.  It reads the first layer's output
array, the edge list's two index vectors computed before the first layer, and the second layer's weights and
bias; none of these but the output array is an array of the first layer, so each holds what it held when the
first layer was entered, and the arguments among them what they held at launch. -/

/-- The edge list is as launched when the second stretch begins. -/
theorem W2_arg1 : W2 m ρ c (Proc.devRef .tc main_arg1) = m ((c : Thread nD τ).loc main_arg1) :=
  (W2_of_ne m ρ c main_arg1 (by decide)).trans (by
    dsimp only [Gen.W1, Gen.hostOps0]
    after_results_simp <;> rfl)

/-- The edges' source indices, computed before the first layer, are still there after it. -/
theorem W2_v1 : (W2 m ρ c (Proc.devRef .tc main_v1) : S800000.Idx → BitVec 32)
    = shapeCast S800000 (extractStridedSlice S1x800000 ![0, 0] (m ((c : Thread nD τ).loc main_arg1) : S2x800000.Idx → BitVec 32)
        Facts₀.slices_S2x800000_S1x800000_0_0) Facts₀.shapeCasts_S1x800000_S800000 :=
  (W2_of_ne m ρ c main_v1 (by decide)).trans (by
    dsimp only [Gen.W1, Gen.hostOps0]
    after_results_simp <;> rfl)

/-- The edges' destination indices, computed before the first layer, are still there after it. -/
theorem W2_v3 : (W2 m ρ c (Proc.devRef .tc main_v3) : S800000.Idx → BitVec 32)
    = shapeCast S800000 (extractStridedSlice S1x800000 ![1, 0] (m ((c : Thread nD τ).loc main_arg1) : S2x800000.Idx → BitVec 32)
        Facts₀.slices_S2x800000_S1x800000_1_0) Facts₀.shapeCasts_S1x800000_S800000 :=
  (W2_of_ne m ρ c main_v3 (by decide)).trans (by
    dsimp only [Gen.W1, Gen.hostOps0]
    after_results_simp <;> rfl)

/-- The second layer's own features are the first layer's output array, untouched by the host operations. -/
theorem V3_h : (V3 m ρ c main_v26 : S50000x128.Idx → EReal) = W2 m ρ c (Proc.devRef .tc main_v26) := by
  dsimp only [Gen.V3, Gen.W3, Gen.hostOps1]
  after_results_simp <;> rfl

/-- The second layer's aggregated features: the host operations between the layers are the aggregation of the
    first layer's output along the edge list, operation for operation. -/
theorem V3_agg : (V3 m ρ c main_v45 : S50000x128.Idx → EReal)
    = Cert.SageAgg.agg (m ((c : Thread nD τ).loc main_arg1)) (W2 m ρ c (Proc.devRef .tc main_v26)) := by
  dsimp only [Gen.V3, Gen.W3, Gen.hostOps1]
  after_results_simp
  rw [W2_v1, W2_v3]
  rfl

/-- The second layer's weights and bias are as launched when the second stretch begins. -/
theorem W2_arg5 : W2 m ρ c (Proc.devRef .tc main_arg5) = m ((c : Thread nD τ).loc main_arg5) :=
  (W2_of_ne m ρ c main_arg5 (by decide)).trans (by
    dsimp only [Gen.W1, Gen.hostOps0]
    after_results_simp <;> rfl)

theorem W2_arg6 : W2 m ρ c (Proc.devRef .tc main_arg6) = m ((c : Thread nD τ).loc main_arg6) :=
  (W2_of_ne m ρ c main_arg6 (by decide)).trans (by
    dsimp only [Gen.W1, Gen.hostOps0]
    after_results_simp <;> rfl)

theorem W2_arg7 : W2 m ρ c (Proc.devRef .tc main_arg7) = m ((c : Thread nD τ).loc main_arg7) :=
  (W2_of_ne m ρ c main_arg7 (by decide)).trans (by
    dsimp only [Gen.W1, Gen.hostOps0]
    after_results_simp <;> rfl)

/-- The second layer's neighbour weights, transposed on the host: entry (k, j) is the given weight at (j, k). -/
theorem V3_wl (k : Fin 128) (j : Fin 64) :
    (V3 m ρ c main_v46 : S128x64.Idx → EReal) (ix2 k j) = m ((c : Thread nD τ).loc main_arg5) (ix2 j k) := by
  have e : (V3 m ρ c main_v46 : S128x64.Idx → EReal)
      = transpose S128x64 [1, 0] (m ((c : Thread nD τ).loc main_arg5) : S64x128.Idx → EReal) Facts₀.transposes_S64x128_S128x64_1_0 := by
    dsimp only [Gen.V3, Gen.W3, Gen.hostOps1]
    after_results_simp
    rw [W2_arg5]
  rw [e]
  exact transpose_ix2_apply _ _ k j

/-- The second layer's bias, laid out as a one-row matrix: entry (0, j) is the bias at j. -/
theorem V3_b (j : Fin 64) :
    (V3 m ρ c main_v47 : S1x64.Idx → EReal) (ix2 (0 : Fin 1) j) = m ((c : Thread nD τ).loc main_arg6) (ix1 j) := by
  have e : (V3 m ρ c main_v47 : S1x64.Idx → EReal)
      = shapeCast S1x64 (m ((c : Thread nD τ).loc main_arg6) : S64.Idx → EReal) Facts₀.shapeCasts_S64_S1x64 := by
    dsimp only [Gen.V3, Gen.W3, Gen.hostOps1]
    after_results_simp
    rw [W2_arg6]
    rfl
  rw [e]
  exact shapeCast_a_1a_apply _ _ 0 j

/-- The second layer's own weights, transposed on the host: entry (k, j) is the given weight at (j, k). -/
theorem V3_wr (k : Fin 128) (j : Fin 64) :
    (V3 m ρ c main_v48 : S128x64.Idx → EReal) (ix2 k j) = m ((c : Thread nD τ).loc main_arg7) (ix2 j k) := by
  have e : (V3 m ρ c main_v48 : S128x64.Idx → EReal)
      = transpose S128x64 [1, 0] (m ((c : Thread nD τ).loc main_arg7) : S64x128.Idx → EReal) Facts₀.transposes_S64x128_S128x64_1_0 := by
    dsimp only [Gen.V3, Gen.W3, Gen.hostOps1]
    after_results_simp
    rw [W2_arg7]
  rw [e]
  exact transpose_ix2_apply _ _ k j

end Cert.SageKHost

end
-- ==== Proof.KValue.lean ====
/-
  The idealized kernel program's result array is the two-layer network over the named aggregation.

  Follow the buffer contents through the program.  The first stretch of host operations aggregates the input
  features and transposes the first layer's weights; the first kernel then leaves the first layer, with its
  maximum, of those arrays: the hidden features.  The second stretch aggregates the hidden features along the
  same edges and transposes the second layer's weights; the second kernel leaves the second layer of those.
  Each kernel's arrangement of the layer (weights transposed, bias added last) is the specification's by
  commutativity and associativity of addition.
-/
import proofs.«181599_j51170240364826_1_alg».proof.Proof.KRegion0
import proofs.«181599_j51170240364826_1_alg».proof.Proof.KRegion1
import proofs.«181599_j51170240364826_1_alg».proof.Proof.KHost

noncomputable section

namespace Cert.SageKValue

open Cert.KernelIdeal Cert.KernelIdeal.Gen Idealize.ShloMosaic Idealize.ShloMosaic.TcCoe Idealize.ShloMosaic.ValueIdx
open Idealize.SL.Sem Cert.Sage Cert.SageAgg Cert.SageKHost

variable (m : (ℓ : Loc nD τ sig) → Buf (Elt Ideal) ℓ) (ρ : Dev nD → PrngReg) (c : Dev nD)

/-- The hidden features, as the first kernel leaves them: the first layer of the aggregated and own inputs. -/
theorem hidden_value :
    (W2 m ρ c (Proc.devRef .tc main_v26) : S50000x128.Idx → EReal)
      = hidden (agg (m ((c : Thread nD τ).loc main_arg1)) (m ((c : Thread nD τ).loc main_arg0))) (m ((c : Thread nD τ).loc main_arg0))
          (m ((c : Thread nD τ).loc main_arg2)) (m ((c : Thread nD τ).loc main_arg4)) (m ((c : Thread nD τ).loc main_arg3)) := by
  refine (W2_arr m ρ c 5).trans ((Cert.SageRegion0.final (V1 m ρ) c).trans ?_)
  rw [V1_agg m ρ c, V1_x m ρ c]
  exact hiddenT_eq_hidden _ _ _ _ _ _ _ _ (V1_wl m ρ c) (V1_wr m ρ c) (V1_b m ρ c)

/-- The result array, as the second kernel leaves it: the network function of the eight arguments. -/
theorem result_value :
    (W4 m ρ c (Proc.devRef .tc main_v49) : S50000x64.Idx → EReal)
      = sage (agg (m ((c : Thread nD τ).loc main_arg1))) (m ((c : Thread nD τ).loc main_arg0))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W4_arr m ρ c 5).trans ((Cert.SageRegion1.final (V3 m ρ) c).trans ?_)
  rw [V3_agg m ρ c, V3_h m ρ c, hidden_value m ρ c]
  exact outerT_eq_outer _ _ _ _ _ _ _ _ (V3_wl m ρ c) (V3_wr m ρ c) (V3_b m ρ c)

end Cert.SageKValue

end
-- ==== Proof.RefValue.lean ====
/-
  The reference program's result is the two-layer network over the named aggregation.

  The reference computes each layer as written in `Cert.Sage.lin`: the aggregated features times the transposed
  first weight, plus the bias broadcast over the rows, plus the own features times the transposed second weight; the
  first layer is followed by the maximum with zero.  Read at an output position (r, j), every stage reduces to its
  operands at positions fixed by (r, j) and the summation variable k: the left factor of a product sits at (r, k),
  the transposed weight at (k, j) is the given weight at (j, k), and the bias broadcast twice is the bias at j.
  Those position identities are stated once per layer over explicit coordinates; with them the stages' sums are,
  term for term, the sums of `lin`.  The aggregation enters only as the function `Cert.SageAgg.agg` applied to
  the input features and then to the hidden features; it is never opened.
-/
import proofs.«181599_j51170240364826_1_alg».proof.Proof.Spec
import proofs.«181599_j51170240364826_1_alg».proof.Proof.Agg

noncomputable section

open scoped BigOperators

namespace Cert.SageRef

open Cert.ReferenceIdeal Cert.ReferenceIdeal.Gen Cert.ReferenceIdeal.Read Idealize.ShloMosaic Idealize.ShloMosaic.TcCoe Idealize.ShloMosaic.ValueIdx Cert.Sage Cert.SageAgg

/-! ## The first layer's positions

  At output position (r, j) and summation index k: the left factor of either product is read at (r, k); the
  transposed weight read at (k, j) is the weight at (j, k); the bias, made a row and then repeated down the rows,
  is the bias at j. -/

theorem left_agg1 (r : Fin 50000) (j k : Fin 128) : lidx_main_v24 (ix2 r j) k = ix2 r k :=
  funext fun a => Fin.ext (by match a with | ⟨0, _⟩ => rfl | ⟨1, _⟩ => rfl)

theorem weight_agg1 (r : Fin 50000) (j k : Fin 128) : idx_main_v23 (ridx_main_v24 (ix2 r j) k) = ix2 j k :=
  funext fun a => Fin.ext (by match a with | ⟨0, _⟩ => rfl | ⟨1, _⟩ => rfl)

theorem bias1 (r : Fin 50000) (j : Fin 128) : idx_main_v25 (idx_main_v26 (ix2 r j)) = ix1 j :=
  funext fun a => Fin.ext (by match a with | ⟨0, _⟩ => rfl)

theorem left_own1 (r : Fin 50000) (j k : Fin 128) : lidx_main_v29 (ix2 r j) k = ix2 r k :=
  funext fun a => Fin.ext (by match a with | ⟨0, _⟩ => rfl | ⟨1, _⟩ => rfl)

theorem weight_own1 (r : Fin 50000) (j k : Fin 128) : idx_main_v28 (ridx_main_v29 (ix2 r j) k) = ix2 j k :=
  funext fun a => Fin.ext (by match a with | ⟨0, _⟩ => rfl | ⟨1, _⟩ => rfl)

/-- The first layer before its maximum, at (r, j): the layer of the aggregated and own input features. -/
theorem pre_hidden_apply (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (r : Fin 50000) (j : Fin 128) :
    val_main_v30 (F := Ideal) x0 x1 x2 x3 x4 (ix2 r j) = lin (agg x1 x0) x0 x2 x4 x3 r j := by
  rw [val_main_v30_apply, val_main_v27_apply, val_main_v24_apply, val_main_v29_apply, val_main_v26_apply,
    val_main_v25_apply, v22_eq]
  simp only [val_main_v23_apply, val_main_v28_apply, Ideal.addf_def, left_agg1, weight_agg1, bias1, left_own1,
    weight_own1]
  rfl

/-- The reference's hidden features are the first layer, with its maximum, of the aggregated and own inputs. -/
theorem hidden_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v31 (F := Ideal) x0 x1 x2 x3 x4 = hidden (agg x1 x0) x0 x2 x4 x3 := by
  funext i
  obtain ⟨r, j, rfl⟩ : ∃ (r : Fin 50000) (j : Fin 128), i = ix2 r j := ⟨i 0, i 1, eq_ix2 i⟩
  rw [val_main_v31_apply, val_main_call0_v0_apply, val_main_call0_cst_apply, pre_hidden_apply]
  rfl

/-! ## The second layer's positions: the same three readings, with 64 output columns. -/

theorem left_agg2 (r : Fin 50000) (j : Fin 64) (k : Fin 128) : lidx_main_v52 (ix2 r j) k = ix2 r k :=
  funext fun a => Fin.ext (by match a with | ⟨0, _⟩ => rfl | ⟨1, _⟩ => rfl)

theorem weight_agg2 (r : Fin 50000) (j : Fin 64) (k : Fin 128) : idx_main_v51 (ridx_main_v52 (ix2 r j) k) = ix2 j k :=
  funext fun a => Fin.ext (by match a with | ⟨0, _⟩ => rfl | ⟨1, _⟩ => rfl)

theorem bias2 (r : Fin 50000) (j : Fin 64) : idx_main_v53 (idx_main_v54 (ix2 r j)) = ix1 j :=
  funext fun a => Fin.ext (by match a with | ⟨0, _⟩ => rfl)

theorem left_own2 (r : Fin 50000) (j : Fin 64) (k : Fin 128) : lidx_main_v57 (ix2 r j) k = ix2 r k :=
  funext fun a => Fin.ext (by match a with | ⟨0, _⟩ => rfl | ⟨1, _⟩ => rfl)

theorem weight_own2 (r : Fin 50000) (j : Fin 64) (k : Fin 128) : idx_main_v56 (ridx_main_v57 (ix2 r j) k) = ix2 j k :=
  funext fun a => Fin.ext (by match a with | ⟨0, _⟩ => rfl | ⟨1, _⟩ => rfl)

/-- The result stage at (r, j): the layer of the aggregated hidden features and the hidden features themselves,
    the hidden features kept as the reference's own stage. -/
theorem result_apply (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S64x128, .f32⟩ : BufTy).Contents (Elt Ideal))
    (x6 : (⟨S64, .f32⟩ : BufTy).Contents (Elt Ideal)) (x7 : (⟨S64x128, .f32⟩ : BufTy).Contents (Elt Ideal))
    (r : Fin 50000) (j : Fin 64) :
    val_main_v58 (F := Ideal) x0 x1 x2 x3 x4 x5 x6 x7 (ix2 r j)
      = lin (agg x1 (val_main_v31 (F := Ideal) x0 x1 x2 x3 x4)) (val_main_v31 (F := Ideal) x0 x1 x2 x3 x4) x5 x7 x6 r j := by
  rw [val_main_v58_apply, val_main_v55_apply, val_main_v52_apply, val_main_v57_apply, val_main_v54_apply,
    val_main_v53_apply, v50_eq]
  generalize val_main_v31 (F := Ideal) x0 x1 x2 x3 x4 = h
  simp only [val_main_v51_apply, val_main_v56_apply, Ideal.addf_def, left_agg2, weight_agg2, bias2, left_own2,
    weight_own2]
  rfl

/-- The reference's result stage is the network function over the aggregation along the given edges. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S64x128, .f32⟩ : BufTy).Contents (Elt Ideal))
    (x6 : (⟨S64, .f32⟩ : BufTy).Contents (Elt Ideal)) (x7 : (⟨S64x128, .f32⟩ : BufTy).Contents (Elt Ideal)) :
    val_main_v58 (F := Ideal) x0 x1 x2 x3 x4 x5 x6 x7 = sage (agg x1) x0 x2 x3 x4 x5 x6 x7 := by
  funext i
  obtain ⟨r, j, rfl⟩ : ∃ (r : Fin 50000) (j : Fin 64), i = ix2 r j := ⟨i 0, i 1, eq_ix2 i⟩
  rw [result_apply, hidden_eq]
  rfl

end Cert.SageRef

end
-- ==== Proof.lean ====
/-
  A two-layer mean-aggregating graph convolution (N = 50000 nodes, E = 800000 edges, feature widths
  128 → 128 → 64): the kernel program against its plain reference, on the extended reals.

  Both programs aggregate a feature array along the edges in the same way, operation for operation (gather the
  source rows, add them into the destination nodes, divide by the larger of the edge count and one); that
  function is named once (`Cert.SageAgg.agg`) and never opened.  A layer is
  `agg(h) · Wlᵀ + b + h · Wrᵀ`; the first layer is followed by the maximum with zero.  The reference computes a
  layer with host matrix products in that order.  The kernel program transposes the weights on the host, and
  its kernel computes, block of 5000 rows by block, `A · Wlᵀ + X · Wrᵀ + b` on the matrix unit (its casts to a
  narrower float format are the identity on the extended reals, a product into a zero accumulator is the plain
  sum).  The two arrangements differ by the order of the three summands only, and addition of extended reals is
  commutative and associative, so no finiteness of the inputs is used: both results are
  `Cert.Sage.sage (agg edges) x W1l b1 W1r W2l b2 W2r`, index by index.

  The three frames are the generated ones (the reference's is its generated run with the result dropped); the
  idealization rewrote nothing, so `preserves` is trivial.
-/
import proofs.«181599_j51170240364826_1_alg».proof.Defs
import proofs.«181599_j51170240364826_1_alg».proof.Proof.Gen.Kernel
import proofs.«181599_j51170240364826_1_alg».proof.Proof.Gen.Kernel.Skeleton
import proofs.«181599_j51170240364826_1_alg».proof.Proof.Gen.Kernel.Launch
import proofs.«181599_j51170240364826_1_alg».proof.Proof.Gen.Kernel.Points
import proofs.«181599_j51170240364826_1_alg».proof.Proof.Gen.Kernel.Frame
import proofs.«181599_j51170240364826_1_alg».proof.Proof.Gen.KernelIdeal
import proofs.«181599_j51170240364826_1_alg».proof.Proof.Gen.KernelIdeal.Skeleton
import proofs.«181599_j51170240364826_1_alg».proof.Proof.Gen.KernelIdeal.Launch
import proofs.«181599_j51170240364826_1_alg».proof.Proof.Gen.KernelIdeal.Points
import proofs.«181599_j51170240364826_1_alg».proof.Proof.Gen.KernelIdeal.Frame
import proofs.«181599_j51170240364826_1_alg».proof.Proof.Gen.ReferenceIdeal
import proofs.«181599_j51170240364826_1_alg».proof.Proof.Gen.Pre_finite_inputs
import proofs.«181599_j51170240364826_1_alg».proof.Proof.Gen.ReferenceIdeal.Run
import proofs.«181599_j51170240364826_1_alg».proof.Proof.Gen.ReferenceIdeal.Read
import proofs.«181599_j51170240364826_1_alg».proof.Proof.KRun
import proofs.«181599_j51170240364826_1_alg».proof.Proof.KValue
import proofs.«181599_j51170240364826_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to restate. -/
theorem preserves : Cert.preserves_Kernel_KernelIdeal := trivial

/-- From memories agreeing on the eight arguments both programs end with the network function of those
    arguments in their result arrays: the kernel program by following its four segments, the reference by
    reading its stages. -/
theorem algebraic : Cert.algebraic_KernelIdeal_ReferenceIdeal := by
  intro m ρ m' ρ' _ hagree
  refine ⟨fun c => Cert.Sage.sage (Cert.SageAgg.agg (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.SageKValue.result_value m ρ c), (h c).2⟩)
      (Cert.SageRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v58_eq, Cert.SageRef.result_eq, (hagree c).1, (hagree c).2.1, (hagree c).2.2.1,
      (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
